-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x128 .f32 .bf16
  ∧ IdealRules.truncf_extf.Statement Cert.KernelIdeal.S512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x1024x1024 .f32) (main_arg1 : FVec F S1024x1024 .f32) (main_arg2 : FVec F S1024 .f32) (main_arg3 : FVec F S1024x128 .f32) (main_arg4 : FVec F S128 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S1x1024 : Shape := ⟨2, ![1, 1024]⟩
abbrev S1x128 : Shape := ⟨2, ![1, 128]⟩
abbrev S1x1024x1024 : Shape := ⟨3, ![1, 1024, 1024]⟩
abbrev S1x512x1024 : Shape := ⟨3, ![1, 512, 1024]⟩
abbrev S1024x1 : Shape := ⟨2, ![1024, 1]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16x1024x1024, .f32⟩
  | .hbm, ⟨1, _⟩ => ⟨S1024x1024, .f32⟩
  | .hbm, ⟨2, _⟩ => ⟨S1024, .f32⟩
  | .hbm, ⟨3, _⟩ => ⟨S1024x128, .f32⟩
  | .hbm, ⟨4, _⟩ => ⟨S128, .f32⟩
  | .hbm, ⟨5, _⟩ => ⟨S1024x1024, .bf16⟩
  | .hbm, ⟨6, _⟩ => ⟨S1024x128, .bf16⟩
  | .hbm, ⟨7, _⟩ => ⟨S1x1024, .f32⟩
  | .hbm, ⟨8, _⟩ => ⟨S1x128, .f32⟩
  | .hbm, ⟨9, _⟩ => ⟨S16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x128, .bf16⟩
  | .local _ .vmem, ⟨5, _⟩ => ⟨S1x128, .f32⟩
  | .local _ .vmem, ⟨6, _⟩ => ⟨S1x512x1024, .f32⟩
  | .local _ .vmem, ⟨7, _⟩ => ⟨S1x512x1024, .f32⟩
  | .local _ .vmem, ⟨8, _⟩ => ⟨S1024x128, .f32⟩
  | .local _ .vmem, ⟨9, _⟩ => ⟨S1x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v7 : Index := Scalar.indexCast v4
  let c0_2 : Index := 0#32
  ![v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S1024_S1x1024 : S1024.ShapeCasts S1x1024
  shapeCasts_S128_S1x128 : S128.ShapeCasts S1x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  transposes_S1024x1_p1_0_S1x1024 : S1024x1.Transposes [1, 0] S1x1024
  h_S512x128 : 0 < S512x128.numel
  reduces_S512x128_S512 : S512x128.Reduces [1] S512
  shapeCasts_S512_S512x1 : S512.ShapeCasts S512x1
  broadcasts_S512x1_S512x1024 : S512x1.Broadcasts S512x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S512x128_S1024x128_S512x1024_1_1_0_0_n_n_wf : DotDims.WF S512x128 S1024x128 S512x1024 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S16x1024x1024.size a
  hwx0_5 : ∀ i : grid0.Coords, EltTy.bits .f32 = 32 ∨ (Rect.block (s := S16x1024x1024) S1x512x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S1x1x1024 : Shape := ⟨3, ![1, 1, 1024]⟩
abbrev S_ : Shape := ⟨0, ![]⟩
abbrev S16x1024x128 : Shape := ⟨3, ![16, 1024, 128]⟩
abbrev S1x1x128 : Shape := ⟨3, ![1, 1, 128]⟩
abbrev S16x1024 : Shape := ⟨2, ![16, 1024]⟩
abbrev S16x1024x1 : Shape := ⟨3, ![16, 1024, 1]⟩
abbrev S16x1x1024 : Shape := ⟨3, ![16, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S1024x1024, .f32⟩
  | .hbm, ⟨2, _⟩ => ⟨S1024, .f32⟩
  | .hbm, ⟨3, _⟩ => ⟨S1024x128, .f32⟩
  | .hbm, ⟨4, _⟩ => ⟨S128, .f32⟩
  | .hbm, ⟨5, _⟩ => ⟨S16x1024x1024, .f32⟩
  | .hbm, ⟨6, _⟩ => ⟨S1x1x1024, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024x1024, .f32⟩
  | .hbm, ⟨11, _⟩ => ⟨S16x1024x1024, .f32⟩
  | .hbm, ⟨12, _⟩ => ⟨S16x1024x128, .f32⟩
  | .hbm, ⟨13, _⟩ => ⟨S1x1x128, .f32⟩
  | .hbm, ⟨14, _⟩ => ⟨S16x1024x128, .f32⟩
  | .hbm, ⟨15, _⟩ => ⟨S16x1024x128, .f32⟩
  | .hbm, ⟨16, _⟩ => ⟨S_, .f32⟩
  | .hbm, ⟨17, _⟩ => ⟨S16x1024x128, .f32⟩
  | .hbm, ⟨18, _⟩ => ⟨S16x1024x128, .f32⟩
  | .hbm, ⟨19, _⟩ => ⟨S16x1024x128, .f32⟩
  | .hbm, ⟨20, _⟩ => ⟨S_, .f32⟩
  | .hbm, ⟨21, _⟩ => ⟨S16x1024, .f32⟩
  | .hbm, ⟨22, _⟩ => ⟨S16x1024x1024, .f32⟩
  | .hbm, ⟨23, _⟩ => ⟨S16x1024x1, .f32⟩
  | .hbm, ⟨24, _⟩ => ⟨S16x1x1024, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | .hbm, ⟨28, _⟩ => ⟨S_, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | .hbm, ⟨32, _⟩ => ⟨S_, .f32⟩
  | .hbm, ⟨33, _⟩ => ⟨S16x1024x1024, .f32⟩
  | .hbm, ⟨34, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  bcast_S_S16x1024x1024 : S_.BroadcastsInDim S16x1024x1024 (![] : Fin 0 → Fin S16x1024x1024.rank)
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  bcast_S_S16x1024x128 : S_.BroadcastsInDim S16x1024x128 (![] : Fin 0 → Fin S16x1024x128.rank)
  reducesTo_S16x1024x128_S16x1024_d2 : S16x1024x128.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  dot_S16x1024x1024_S1024x1024_S16x1024x1024_2_0_01_1_n_n_wf : DotDims.WF S16x1024x1024 S1024x1024 S16x1024x1024 [2] [0] [0, 1] [1] [] []
  dot_S16x1024x1024_S1024x128_S16x1024x128_2_0_01_1_n_n_wf : DotDims.WF S16x1024x1024 S1024x128 S16x1024x128 [2] [0] [0, 1] [1] [] []
  dot_S16x1024x128_S16x1024x128_S16x1024x1024_2_2_1_1_0_0_wf : DotDims.WF S16x1024x128 S16x1024x128 S16x1024x1024 [2] [2] [1] [1] [0] [0]

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S1024x128_S16x1024x128_2_0_01_1_n_n : DotDims S16x1024x1024 S1024x128 S16x1024x128 where
  lhsContracting := [2]
  rhsContracting := [0]
  lhsNonContracting := [0, 1]
  rhsNonContracting := [1]
  lhsBatch := []
  rhsBatch := []
  wf := dot_S16x1024x1024_S1024x128_S16x1024x128_2_0_01_1_n_n_wf
def dot_S16x1024x128_S16x1024x128_S16x1024x1024_2_2_1_1_0_0 : DotDims S16x1024x128 S16x1024x128 S16x1024x1024 where
  lhsContracting := [2]
  rhsContracting := [2]
  lhsNonContracting := [1]
  rhsNonContracting := [1]
  lhsBatch := [0]
  rhsBatch := [0]
  wf := dot_S16x1024x128_S16x1024x128_S16x1024x1024_2_2_1_1_0_0_wf

class Facts : Prop extends Facts₀ where

variable [Facts]
-- ==== Proof.Pieces.lean ====
/-
  What one run of the kernel body leaves behind, as values.

  The body runs in two ways. At the first row tile of a sentence it computes the sentence's probe vectors (two affine
  layers, each clamped at zero) from the staged inputs, keeps them in one carried buffer and their squared norms in
  another, and then forms the tile of distances from those two buffers. At a later row tile it only forms the tile of
  distances from what the two carried buffers already hold. Each statement below reads one buffer's contents after the
  body as the body's own arithmetic (the payload terms) applied to the buffers' contents before it; the row tile is the
  512-row window of the probe vectors that starts at the tile's offset.
-/
import proofs.«122737_j34505767256461_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of the probe vectors that a row tile works on: rows `offset … offset + 511`. -/
abbrev rowTile (i : grid0.Coords) (t : Vec F S1024x128 .f32) : Vec F S512x128 .f32 :=
  View.ld t (Rect.unit (s := S1024x128) (k0_off1 i) S512x128.size (k0_off1_inb i))

/-- First row tile: the carried probe-vector buffer ends at the two layers applied to the staged inputs. -/
theorem feat_first (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x512x1024 .f32) (harg7 : arg7.IsWhole) (arg8 : Memref sig .tc .vmem S1024x128 .f32) (harg8 : arg8.IsWhole) (arg9 : Memref sig .tc .vmem S1x1024 .f32) (harg9 : arg9.IsWhole) (hc0 : cond0_0 i) (x0 : Vec F S1x1024x1024 .f32) (x1 : Vec F S1024x1024 .bf16) (x2 : Vec F S1x1024 .f32) (x3 : Vec F S1024x128 .bf16) (x4 : Vec F S1x128 .f32) :
    sout0_A_0 c i arg2 harg2 arg3 harg3 arg4 harg4 arg5 harg5 arg6 harg6 arg7 harg7 arg8 harg8 arg9 harg9 hc0 x0 x1 x2 x3 x4 = k0_pay2 x0 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz2]
  simp only [View.readAt_eq_ld, harg2.read_unread, harg3.read_unread, harg4.read_unread, harg5.read_unread, harg6.read_unread, View.ld_unit_zero (S := S1x1024x1024) hz3, View.ld_unit_zero (S := S1024x1024) hz2, View.ld_unit_zero (S := S1x1024) hz2, View.ld_unit_zero (S := S1024x128) hz2, View.ld_unit_zero (S := S1x128) hz2]

/-- First row tile: the carried norm buffer ends at the squared norms of those probe vectors, laid as one row. -/
theorem norms_first (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x512x1024 .f32) (harg7 : arg7.IsWhole) (arg8 : Memref sig .tc .vmem S1024x128 .f32) (harg8 : arg8.IsWhole) (arg9 : Memref sig .tc .vmem S1x1024 .f32) (harg9 : arg9.IsWhole) (hc0 : cond0_0 i) (x0 : Vec F S1x1024x1024 .f32) (x1 : Vec F S1024x1024 .bf16) (x2 : Vec F S1x1024 .f32) (x3 : Vec F S1024x128 .bf16) (x4 : Vec F S1x128 .f32) :
    sout0_A_1 c i arg2 harg2 arg3 harg3 arg4 harg4 arg5 harg5 arg6 harg6 arg7 harg7 arg8 harg8 arg9 harg9 hc0 x0 x1 x2 x3 x4 = k0_pay3 x0 x1 x2 x3 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz2]
  simp only [View.readAt_eq_ld, harg2.read_unread, harg3.read_unread, harg4.read_unread, harg5.read_unread, harg6.read_unread, View.ld_unit_zero (S := S1x1024x1024) hz3, View.ld_unit_zero (S := S1024x1024) hz2, View.ld_unit_zero (S := S1x1024) hz2, View.ld_unit_zero (S := S1024x128) hz2, View.ld_unit_zero (S := S1x128) hz2]

/-- First row tile: the output block is the distance arithmetic over the probe vectors and norms just stored. -/
theorem tile_first (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x512x1024 .f32) (harg7 : arg7.IsWhole) (arg8 : Memref sig .tc .vmem S1024x128 .f32) (harg8 : arg8.IsWhole) (arg9 : Memref sig .tc .vmem S1x1024 .f32) (harg9 : arg9.IsWhole) (hc0 : cond0_0 i) (x0 : Vec F S1x1024x1024 .f32) (x1 : Vec F S1024x1024 .bf16) (x2 : Vec F S1x1024 .f32) (x3 : Vec F S1024x128 .bf16) (x4 : Vec F S1x128 .f32) :
    out0_A_5 c i arg2 harg2 arg3 harg3 arg4 harg4 arg5 harg5 arg6 harg6 arg7 harg7 arg8 harg8 arg9 harg9 hc0 x0 x1 x2 x3 x4
      = k0_pay4 (k0_pay2 x0 x1 x2 x3 x4) (rowTile i (k0_pay2 x0 x1 x2 x3 x4)) (k0_pay3 x0 x1 x2 x3 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz3, View.readCov_unit_zero (S := S1024x128) _ hz2, View.readCov_unit_zero (S := S1x1024) _ hz2,
    View.readAt_writes_junk_eq_canon, View.canon_unit_zero hz2]
  simp only [View.readAt_eq_ld, harg2.read_unread, harg3.read_unread, harg4.read_unread, harg5.read_unread, harg6.read_unread, View.ld_unit_zero (S := S1x1024x1024) hz3, View.ld_unit_zero (S := S1024x1024) hz2, View.ld_unit_zero (S := S1x1024) hz2, View.ld_unit_zero (S := S1024x128) hz2, View.ld_unit_zero (S := S1x128) hz2]
  rfl

/-- A later row tile: the output block is the distance arithmetic over what the two carried buffers hold. -/
theorem tile_later (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x512x1024 .f32) (harg7 : arg7.IsWhole) (arg8 : Memref sig .tc .vmem S1024x128 .f32) (harg8 : arg8.IsWhole) (arg9 : Memref sig .tc .vmem S1x1024 .f32) (harg9 : arg9.IsWhole) (hc0 : ¬cond0_0 i) (x0 : Vec F S1x1024x1024 .f32) (x1 : Vec F S1024x1024 .bf16) (x2 : Vec F S1x1024 .f32) (x3 : Vec F S1024x128 .bf16) (x4 : Vec F S1x128 .f32) (xs0 : Vec F S1024x128 .f32) (xs1 : Vec F S1x1024 .f32) :
    out0_B_5 c i arg2 harg2 arg3 harg3 arg4 harg4 arg5 harg5 arg6 harg6 arg7 harg7 arg8 harg8 arg9 harg9 hc0 x0 x1 x2 x3 x4 xs0 xs1 = k0_pay4 xs0 (rowTile i xs0) xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  rw [View.canon_unit_zero hz3]
  simp only [View.readAt_eq_ld, harg8.read_unread, harg9.read_unread, View.ld_unit_zero (S := S1024x128) hz2, View.ld_unit_zero (S := S1x1024) hz2]

end Cert.KernelIdeal.Pieces

end
-- ==== Proof.Spec.lean ====
/-
  The function both programs compute, index by index over the extended reals.

  For a batch of 16 sentences of 1024 tokens with 1024 features each (`X`), two affine layers each followed by a
  clamp at zero,

      hid  b l h = max (∑ k, X b l k · W1 k h + b1 h) 0          (1024 hidden units)
      feat b l r = max (∑ k, hid b l k · W2 k r + b2 r) 0         (128 probe coordinates)

  and then, per sentence, the squared distance between every two tokens' probe vectors by the polarisation identity,
  clamped at zero:

      sq   b l   = ∑ r, feat b l r · feat b l r
      dist b i j = max ((sq b i + sq b j) − 2 · ∑ r, feat b i r · feat b j r) 0.

  The two literals (zero, two) are kept as the words the programs print; the same word appears on both sides and is
  never evaluated except for the zero a sum starts from.
-/
import Idealize.ShloMosaic.PureOps.Ideal
import Idealize.ShloMosaic.Lib.ValueIdx

noncomputable section

namespace Cert.PairDist

open Idealize.ShloMosaic Idealize.ShloMosaic.ValueIdx
open scoped BigOperators

/-- The clamp's floor: the word of `0.0`. -/
abbrev zeroW : EReal := Ideal.ofBits .f32 0x00000000#32
/-- The factor of the inner product: the word of `2.0`. -/
abbrev twoW : EReal := Ideal.ofBits .f32 0x40000000#32

variable (X : (⟨3, ![16, 1024, 1024]⟩ : Shape).Idx → EReal) (W1 : (⟨2, ![1024, 1024]⟩ : Shape).Idx → EReal)
  (b1 : (⟨1, ![1024]⟩ : Shape).Idx → EReal) (W2 : (⟨2, ![1024, 128]⟩ : Shape).Idx → EReal)
  (b2 : (⟨1, ![128]⟩ : Shape).Idx → EReal)

/-- The first layer at sentence `b`, token `l`, hidden unit `h`. -/
def hid (b : Fin 16) (l : Fin 1024) (h : Fin 1024) : EReal :=
  max ((∑ k : Fin 1024, X (ix3 b l k) * W1 (ix2 k h)) + b1 (ix1 h)) zeroW

/-- The second layer (the probe vector) at sentence `b`, token `l`, coordinate `r`. -/
def feat (b : Fin 16) (l : Fin 1024) (r : Fin 128) : EReal :=
  max ((∑ k : Fin 1024, hid X W1 b1 b l k * W2 (ix2 k r)) + b2 (ix1 r)) zeroW

/-- The squared norm of token `l`'s probe vector. -/
def sq (b : Fin 16) (l : Fin 1024) : EReal :=
  ∑ r : Fin 128, feat X W1 b1 W2 b2 b l r * feat X W1 b1 W2 b2 b l r

/-- The clamped squared distance between tokens `i` and `j` of sentence `b`. -/
def dist (b : Fin 16) (i j : Fin 1024) : EReal :=
  max ((sq X W1 b1 W2 b2 b i + sq X W1 b1 W2 b2 b j)
    - twoW * ∑ r : Fin 128, feat X W1 b1 W2 b2 b i r * feat X W1 b1 W2 b2 b j r) zeroW

/-- The whole result array. -/
def result : (⟨3, ![16, 1024, 1024]⟩ : Shape).Idx → EReal :=
  fun i => dist X W1 b1 W2 b2 (i 0) (i 1) (i 2)

theorem result_ix3 (b : Fin 16) (i j : Fin 1024) :
    result X W1 b1 W2 b2 (ix3 b i j) = dist X W1 b1 W2 b2 b i j := rfl

end Cert.PairDist

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.Payload.lean ====
/-
  The kernel body's arithmetic read one element at a time over the extended reals.

  At a sentence's first row tile the body turns the staged sentence `x0` (1 × 1024 tokens × 1024 features), the two
  weight matrices and the two bias rows into the 1024 × 128 probe vectors — two matrix products into zero accumulators,
  each followed by adding its bias row to every row and clamping at zero — and into the row of their 1024 squared
  norms (a sum along the 128 coordinates, turned from a column into a row). At every row tile it forms, from the probe
  vectors, the tile's 512 of them and the norm row, the entry
  `max ((|u_p|² + |v_q|²) − 2 · ⟨u_p, v_q⟩) 0`. Each statement reads one of these terms at an index written by its
  coordinates; the changes of float format inside the body are the identity here.
-/
import proofs.«122737_j34505767256461_2_alg».proof.Proof.Gen.KernelIdeal.Skeleton
import proofs.«122737_j34505767256461_2_alg».proof.Proof.Spec
import proofs.«122737_j34505767256461_2_alg».proof.Proof.LibDenseRows
import proofs.«122737_j34505767256461_2_alg».proof.Proof.LibHiLoMatmul
import proofs.«122737_j34505767256461_2_alg».proof.Proof.LibColumnLayout
import proofs.«122737_j34505767256461_2_alg».proof.Proof.LibRowLift
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen Cert.PairDist
open Cert.KernelIdeal.Facts₀

/-! ## One affine layer clamped at zero, read at `(r, c)` -/

/-- A product `A · W` into a zero accumulator plus one bias row laid down every row, clamped at the word of zero,
    read at `(r, c)`: `max (∑ k, A (r, k) · W (k, c) + bias (0, c)) 0`. -/
theorem layer_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (bias : FVec Ideal ⟨2, ![1, N]⟩ .f32)
    (hb : (⟨2, ![1, N]⟩ : Shape).Broadcasts ⟨2, ![M, N]⟩) (r : Fin M) (c : Fin N) :
    maximumf (addf (matmul D none A W (constant (F := Ideal) ⟨2, ![M, N]⟩ .f32 0x00000000#32)) (broadcastTo ⟨2, ![M, N]⟩ bias hb))
        (broadcast ⟨2, ![M, N]⟩ (Scalar.ofBits (F := Ideal) .f32 0x00000000#32)) (ix2 r c)
      = max ((∑ k : Fin K, A (ix2 r k) * W (ix2 k c)) + bias (ix2 (0 : Fin 1) c)) zeroW := by
  rw [maximumf_apply, addf_apply, broadcast_apply, broadcastTo_1b_ab_apply,
    Cert.DenseRows.matmul_zero_plain_apply D hl hr hrank hsize hl0 hr1 A W r c]
  rfl

/-! ## The dimension numbers of the two layers' products -/

theorem d1_l0 (j : S1024x1024.Idx) (k : dot_S1024x1024_S1024x1024_S1024x1024_1_0_0_1_n_n.contr.Idx) :
    (dot_S1024x1024_S1024x1024_S1024x1024_1_0_0_1_n_n.lhsIdx j k (0 : Fin 2)).val = (j (0 : Fin 2)).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem d1_r1 (j : S1024x1024.Idx) (k : dot_S1024x1024_S1024x1024_S1024x1024_1_0_0_1_n_n.contr.Idx) :
    (dot_S1024x1024_S1024x1024_S1024x1024_1_0_0_1_n_n.rhsIdx j k (1 : Fin 2)).val = (j (1 : Fin 2)).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl
theorem d2_l0 (j : S1024x128.Idx) (k : dot_S1024x1024_S1024x128_S1024x128_1_0_0_1_n_n.contr.Idx) :
    (dot_S1024x1024_S1024x128_S1024x128_1_0_0_1_n_n.lhsIdx j k (0 : Fin 2)).val = (j (0 : Fin 2)).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem d2_r1 (j : S1024x128.Idx) (k : dot_S1024x1024_S1024x128_S1024x128_1_0_0_1_n_n.contr.Idx) :
    (dot_S1024x1024_S1024x128_S1024x128_1_0_0_1_n_n.rhsIdx j k (1 : Fin 2)).val = (j (1 : Fin 2)).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-! ## The body's arithmetic over one sentence's staged inputs -/

variable (x0 : Vec Ideal S1x1024x1024 .f32) (x1 : Vec Ideal S1024x1024 .bf16) (x2 : Vec Ideal S1x1024 .f32)
  (x3 : Vec Ideal S1024x128 .bf16) (x4 : Vec Ideal S1x128 .f32)

/-- The first layer over one staged sentence: token `l`, hidden unit `h`. -/
def hidBlk (l : Fin 1024) (h : Fin 1024) : EReal :=
  max ((∑ k : Fin 1024, x0 (ix3 (0 : Fin 1) l k) * x1 (ix2 k h)) + x2 (ix2 (0 : Fin 1) h)) zeroW

/-- The second layer over one staged sentence: token `l`, probe coordinate `r`. -/
def featBlk (l : Fin 1024) (r : Fin 128) : EReal :=
  max ((∑ k : Fin 1024, hidBlk x0 x1 x2 l k * x3 (ix2 k r)) + x4 (ix2 (0 : Fin 1) r)) zeroW

/-- The probe vectors the body computes at a sentence's first row tile. -/
theorem pay1_apply (l : Fin 1024) (r : Fin 128) :
    k0_pay1 (F := Ideal) x0 x1 x2 x3 x4 (ix2 l r) = featBlk x0 x1 x2 x3 x4 l r := by
  unfold k0_pay1
  refine (layer_apply dot_S1024x1024_S1024x128_S1024x128_1_0_0_1_n_n rfl rfl rfl rfl d2_l0 d2_r1 _ _ _ _ l r).trans ?_
  unfold featBlk
  refine congrArg₂ max (congrArg₂ (· + ·) (Finset.sum_congr rfl fun k _ => congrArg₂ (· * ·) ?_ ?_) ?_) rfl
  · rw [truncf_apply]
    refine (layer_apply dot_S1024x1024_S1024x1024_S1024x1024_1_0_0_1_n_n rfl rfl rfl rfl d1_l0 d1_r1 _ _ _ _ l k).trans ?_
    unfold hidBlk
    refine congrArg₂ max (congrArg₂ (· + ·) (Finset.sum_congr rfl fun k' _ => congrArg₂ (· * ·) ?_ ?_) ?_) rfl
    · rw [truncf_apply]; exact shapeCast_1ab_ab_apply x0 _ l k'
    · rw [shapeCast_self]
    · rw [shapeCast_self]
  · rw [shapeCast_self]
  · rw [shapeCast_self]

theorem pay2_apply (l : Fin 1024) (r : Fin 128) :
    k0_pay2 (F := Ideal) x0 x1 x2 x3 x4 (ix2 l r) = featBlk x0 x1 x2 x3 x4 l r := by
  unfold k0_pay2
  rw [shapeCast_self]
  exact pay1_apply x0 x1 x2 x3 x4 l r

/-- The squared norms the body keeps at a sentence's first row tile, one row of 1024. -/
theorem pay3_apply (j : Fin 1024) :
    k0_pay3 (F := Ideal) x0 x1 x2 x3 x4 (ix2 (0 : Fin 1) j)
      = ∑ r : Fin 128, featBlk x0 x1 x2 x3 x4 j r * featBlk x0 x1 x2 x3 x4 j r := by
  unfold k0_pay3
  dsimp only
  rw [shapeCast_self]
  refine (transpose_ix2_apply _ _ (0 : Fin 1) j).trans ?_
  refine (Cert.ColumnLayout.shapeCast_a_a1_apply _ _ j (0 : Fin 1)).trans ?_
  refine (Cert.DenseRows.laneSum_apply _ Gen.reduces_S1024x128_S1024 _ _ (Cert.RowLift.lift_row _) j).trans ?_
  exact Finset.sum_congr rfl fun r _ => by rw [mulf_apply, pay1_apply]

/-- The distance arithmetic over the probe vectors `v5`, a row tile `v8` of them and the norm row `v15`. -/
theorem pay4_apply (v5 : Vec Ideal S1024x128 .f32) (v8 : Vec Ideal S512x128 .f32) (v15 : Vec Ideal S1x1024 .f32)
    (p : Fin 512) (q : Fin 1024) :
    k0_pay4 (F := Ideal) v5 v8 v15 (ix3 (0 : Fin 1) p q)
      = max (((∑ r : Fin 128, v8 (ix2 p r) * v8 (ix2 p r)) + v15 (ix2 (0 : Fin 1) q))
          - twoW * ∑ r : Fin 128, v8 (ix2 p r) * v5 (ix2 q r)) zeroW := by
  unfold k0_pay4
  dsimp only
  refine (shapeCast_ab_1ab_apply _ _ 0 p q).trans ?_
  rw [maximumf_apply, subf_apply, addf_apply, mulf_apply, broadcast_apply, broadcast_apply,
    Cert.ColumnLayout.broadcastTo_a1_ab_apply, Cert.ColumnLayout.shapeCast_a_a1_apply, broadcastTo_1b_ab_apply]
  refine congrArg₂ max (congrArg₂ (· - ·) (congrArg₂ (· + ·) ?_ rfl) (congrArg (twoW * ·) ?_)) rfl
  · exact Cert.DenseRows.laneSum_apply (mulf v8 v8) Gen.reduces_S512x128_S512 _ _ (Cert.RowLift.lift_row _) p
  · exact Cert.HiLoMatmul.matmul_nt_zero_apply Facts₀.dot_S512x128_S1024x128_S512x1024_1_1_0_0_n_n_wf none _ _ p q

end Cert.KernelIdeal.Payload

end
-- ==== Proof.Inputs.lean ====
/-
  What the kernel's input windows hold at each grid point, read at coordinates over the extended reals.

  The grid is 16 sentences × 2 row tiles, walked sentence by sentence: point `t` is row tile `t % 2` of sentence
  `t / 2`. The sentence window's block at `t` is sentence `t / 2` of the batch; each weight matrix and each bias is one
  block, the same at every point. Before the region runs the program narrows the two weight matrices (the identity on
  extended reals) and re-lays each bias vector as one row, so a weight block reads the argument matrix at the same
  coordinates and a bias block reads the argument vector at its column.
-/
import proofs.«122737_j34505767256461_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Inputs

open Cert.KernelIdeal Cert.KernelIdeal.Gen

variable (m : (ℓ : Loc nD τ sig) → Buf (Elt Ideal) ℓ)

/-! ## Where each grid point's blocks sit -/

/-- The windows' block indices at point `t` of the 16 × 2 grid (sentence `t / 2`, row tile `t % 2`): the sentence
    block follows the sentence, the weights and biases are one block each, the output block is (sentence, row tile, 0). -/
theorem grid_facts : ∀ t : Fin cfg0.N,
    win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = t.val % 2 ∧ win0_5.index t (2 : Fin 3) = 0
    ∧ (grid0.coords t (1 : Fin 2)).val = t.val % 2 :=
  (by decide +kernel : ∀ t : Fin grid0.N, _)

/-! ## The arrays the region finds: the arguments, two of them narrowed and two re-laid as one row -/

theorem V_v0 (c : Dev nD) : (V m c main_v0 : S1024x1024.Idx → EReal)
    = (truncf (F := Ideal) .bf16 (m ((c : Thread nD τ).loc main_arg1) : FVec Ideal S1024x1024 .f32) bitsLt_bf16_f32 : S1024x1024.Idx → EReal) := by
  dsimp only [Gen.V, Gen.hostOps0]; after_results

theorem V_v1 (c : Dev nD) : (V m c main_v1 : S1024x128.Idx → EReal)
    = (truncf (F := Ideal) .bf16 (m ((c : Thread nD τ).loc main_arg3) : FVec Ideal S1024x128 .f32) bitsLt_bf16_f32 : S1024x128.Idx → EReal) := by
  dsimp only [Gen.V, Gen.hostOps0]; after_results

theorem V_v2 (c : Dev nD) : (V m c main_v2 : S1x1024.Idx → EReal)
    = (shapeCast S1x1024 (m ((c : Thread nD τ).loc main_arg2) : S1024.Idx → EReal) shapeCasts_S1024_S1x1024 : S1x1024.Idx → EReal) := by
  dsimp only [Gen.V, Gen.hostOps0]; after_results; rfl

theorem V_v3 (c : Dev nD) : (V m c main_v3 : S1x128.Idx → EReal)
    = (shapeCast S1x128 (m ((c : Thread nD τ).loc main_arg4) : S128.Idx → EReal) shapeCasts_S128_S1x128 : S1x128.Idx → EReal) := by
  dsimp only [Gen.V, Gen.hostOps0]; after_results; rfl

/-! ## Each input block read at coordinates -/

/-- The sentence block at point `t` is sentence `t / 2` of the batch. -/
theorem iblk0_apply (c : Dev nD) (t : Fin cfg0.N) (l k : Fin 1024) (hb : t.val / 2 < 16) :
    (iblk m c 0 t : Vec Ideal S1x1024x1024 .f32) (ix3 (0 : Fin 1) l k)
      = m ((c : Thread nD τ).loc main_arg0) (ix3 (⟨t.val / 2, hb⟩ : Fin 16) l k) := by
  unfold iblk
  rw [View.read_apply]
  show V m c main_arg0 _ = m ((c : Thread nD τ).loc main_arg0) _
  rw [V_main_arg0]
  refine congrArg _ (funext fun a => Fin.ext ?_)
  obtain ⟨e0, e1, e2, -⟩ := grid_facts t
  match a with
  | ⟨0, _⟩ => show win0_0.index t (0 : Fin 3) * 1 + 1 * 0 = t.val / 2; rw [e0]; omega
  | ⟨1, _⟩ => show win0_0.index t (1 : Fin 3) * 1024 + 1 * l.val = l.val; rw [e1]; omega
  | ⟨2, _⟩ => show win0_0.index t (2 : Fin 3) * 1024 + 1 * k.val = k.val; rw [e2]; omega

/-- The first weight block is the whole first weight matrix. -/
theorem iblk1_apply (c : Dev nD) (t : Fin cfg0.N) (k h : Fin 1024) :
    (iblk m c 1 t : Vec Ideal S1024x1024 .bf16) (ix2 k h) = m ((c : Thread nD τ).loc main_arg1) (ix2 k h) := by
  unfold iblk
  rw [View.read_apply]
  show V m c main_v0 _ = m ((c : Thread nD τ).loc main_arg1) _
  rw [V_v0, truncf_apply]
  refine congrArg _ (funext fun a => Fin.ext ?_)
  obtain ⟨-, -, -, e0, e1, -⟩ := grid_facts t
  match a with
  | ⟨0, _⟩ => show win0_1.index t (0 : Fin 2) * 1024 + 1 * k.val = k.val; rw [e0]; omega
  | ⟨1, _⟩ => show win0_1.index t (1 : Fin 2) * 1024 + 1 * h.val = h.val; rw [e1]; omega

/-- The first bias block is the first bias vector as one row. -/
theorem iblk2_apply (c : Dev nD) (t : Fin cfg0.N) (h : Fin 1024) :
    (iblk m c 2 t : Vec Ideal S1x1024 .f32) (ix2 (0 : Fin 1) h) = m ((c : Thread nD τ).loc main_arg2) (ix1 h) := by
  unfold iblk
  rw [View.read_apply]
  show V m c main_v2 _ = m ((c : Thread nD τ).loc main_arg2) _
  rw [V_v2]
  refine Eq.trans (congrArg _ (funext fun a => Fin.ext ?_)) (shapeCast_a_1a_apply _ shapeCasts_S1024_S1x1024 (0 : Fin 1) h)
  obtain ⟨-, -, -, -, -, e0, e1, -⟩ := grid_facts t
  match a with
  | ⟨0, _⟩ => show win0_2.index t (0 : Fin 2) * 1 + 1 * 0 = 0; rw [e0]
  | ⟨1, _⟩ => show win0_2.index t (1 : Fin 2) * 1024 + 1 * h.val = h.val; rw [e1]; omega

/-- The second weight block is the whole second weight matrix. -/
theorem iblk3_apply (c : Dev nD) (t : Fin cfg0.N) (k : Fin 1024) (r : Fin 128) :
    (iblk m c 3 t : Vec Ideal S1024x128 .bf16) (ix2 k r) = m ((c : Thread nD τ).loc main_arg3) (ix2 k r) := by
  unfold iblk
  rw [View.read_apply]
  show V m c main_v1 _ = m ((c : Thread nD τ).loc main_arg3) _
  rw [V_v1, truncf_apply]
  refine congrArg _ (funext fun a => Fin.ext ?_)
  obtain ⟨-, -, -, -, -, -, -, e0, e1, -⟩ := grid_facts t
  match a with
  | ⟨0, _⟩ => show win0_3.index t (0 : Fin 2) * 1024 + 1 * k.val = k.val; rw [e0]; omega
  | ⟨1, _⟩ => show win0_3.index t (1 : Fin 2) * 128 + 1 * r.val = r.val; rw [e1]; omega

/-- The second bias block is the second bias vector as one row. -/
theorem iblk4_apply (c : Dev nD) (t : Fin cfg0.N) (r : Fin 128) :
    (iblk m c 4 t : Vec Ideal S1x128 .f32) (ix2 (0 : Fin 1) r) = m ((c : Thread nD τ).loc main_arg4) (ix1 r) := by
  unfold iblk
  rw [View.read_apply]
  show V m c main_v3 _ = m ((c : Thread nD τ).loc main_arg4) _
  rw [V_v3]
  refine Eq.trans (congrArg _ (funext fun a => Fin.ext ?_)) (shapeCast_a_1a_apply _ shapeCasts_S128_S1x128 (0 : Fin 1) r)
  obtain ⟨-, -, -, -, -, -, -, -, -, e0, e1, -⟩ := grid_facts t
  match a with
  | ⟨0, _⟩ => show win0_4.index t (0 : Fin 2) * 1 + 1 * 0 = 0; rw [e0]
  | ⟨1, _⟩ => show win0_4.index t (1 : Fin 2) * 128 + 1 * r.val = r.val; rw [e1]; omega

end Cert.KernelIdeal.Inputs

end
-- ==== Proof.Blocks.lean ====
/-
  The kernel's result array, block by block, is the specification function.

  The grid walks 16 sentences × 2 row tiles, sentence by sentence; the two buffers the body carries from one grid point
  to the next are filled at a sentence's first row tile (even points) and only read at its second (odd points). So
  after ANY point `t` the carried buffers hold the probe vectors and squared norms of sentence `t / 2`: at an even point
  they were just computed from that sentence's block; at an odd point they are what the even point before it left, and
  that point staged the same sentence. The block point `t` writes back is therefore the distance arithmetic over
  sentence `t / 2`'s probe vectors, for the rows `512 · (t % 2) … 512 · (t % 2) + 511`; read at its coordinates it is
  the specification's `dist` at (sentence, row, column). The 32 blocks tile the result array, one per (sentence, row
  tile), so the array after the run is the specification function of the argument arrays.
-/
import proofs.«122737_j34505767256461_2_alg».proof.Proof.Gen.KernelIdeal.Value
import proofs.«122737_j34505767256461_2_alg».proof.Proof.Pieces
import proofs.«122737_j34505767256461_2_alg».proof.Proof.Payload
import proofs.«122737_j34505767256461_2_alg».proof.Proof.Inputs
import proofs.«122737_j34505767256461_2_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.PairDist

variable (m : (ℓ : Loc nD τ sig) → Buf (Elt Ideal) ℓ) (ρ : Dev nD → PrngReg)

/-- The specification function of the argument arrays as launched. -/
abbrev spec (c : Dev nD) : (⟨3, ![16, 1024, 1024]⟩ : Shape).Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The probe vectors the body computes from the blocks staged at point `s`. -/
abbrev feats (c : Dev nD) (s : Fin cfg0.N) : Vec Ideal S1024x128 .f32 :=
  k0_pay2 (F := Ideal) (iblk m c 0 s) (iblk m c 1 s) (iblk m c 2 s) (iblk m c 3 s) (iblk m c 4 s)

/-- Their squared norms, as one row. -/
abbrev norms (c : Dev nD) (s : Fin cfg0.N) : Vec Ideal S1x1024 .f32 :=
  k0_pay3 (F := Ideal) (iblk m c 0 s) (iblk m c 1 s) (iblk m c 2 s) (iblk m c 3 s) (iblk m c 4 s)

theorem sentence_lt (t : Fin cfg0.N) : t.val / 2 < 16 := by
  have h1 := t.isLt; have h2 : cfg0.N = 32 := N_0; omega

theorem row_lt (t : Fin cfg0.N) (p : Fin 512) : 512 * (t.val % 2) + p.val < 1024 := by
  have h1 := p.isLt; omega

/-! ## What the carried buffers hold -/

/-- After an even point: what that point computed from its own blocks. -/
theorem carried_even (c : Dev nD) (t : Fin cfg0.N) (h0 : t.val % 2 = 0) :
    (outsAt0 m c t.val t.isLt).2.1 = feats m c t ∧ (outsAt0 m c t.val t.isLt).2.2 = norms m c t := by
  rw [outsAt0_A m c t h0]
  dsimp only
  exact ⟨Pieces.feat_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
    Pieces.norms_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)⟩

/-! ## What a point writes back -/

/-- The distance tile over the probe vectors and norms computed at point `s`, for the row tile of point `t`. -/
abbrev tile (c : Dev nD) (t s : Fin cfg0.N) : Vec Ideal S1x512x1024 .f32 :=
  k0_pay4 (F := Ideal) (feats m c s) (Pieces.rowTile (grid0.coords t) (feats m c s)) (norms m c s)

theorem flushed_even (c : Dev nD) (t : Fin cfg0.N) (h0 : t.val % 2 = 0) :
    (dats m 0 c).flushed 5 t = (cfg0.win 5).cut (grid0.coords t) (tile m c t t) := by
  rw [Value.flushed5_A m c t h0,
    Pieces.tile_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)]

theorem flushed_odd (c : Dev nD) (t : Fin cfg0.N) (h0 : ¬t.val % 2 = 0)
    (hlt : t.val - 1 < cfg0.N) :
    (dats m 0 c).flushed 5 t = (cfg0.win 5).cut (grid0.coords t) (tile m c t ⟨t.val - 1, hlt⟩) := by
  have hev : (⟨t.val - 1, hlt⟩ : Fin cfg0.N).val % 2 = 0 := by show (t.val - 1) % 2 = 0; omega
  have e1 : (outsAt0 m c (t.val - 1) hlt).2.1 = feats m c ⟨t.val - 1, hlt⟩ := (carried_even m c ⟨t.val - 1, hlt⟩ hev).1
  have e2 : (outsAt0 m c (t.val - 1) hlt).2.2 = norms m c ⟨t.val - 1, hlt⟩ := (carried_even m c ⟨t.val - 1, hlt⟩ hev).2
  rw [Value.flushed5_B m c t h0,
    Pieces.tile_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
      (outsAt0 m c (t.val - 1) hlt).2.1 (outsAt0 m c (t.val - 1) hlt).2.2, e1, e2]

/-! ## The tile read at coordinates -/

/-- The probe vectors computed at point `s` are the specification's, for sentence `s / 2`. -/
theorem feats_apply (c : Dev nD) (s : Fin cfg0.N) (l : Fin 1024) (r : Fin 128) :
    feats m c s (ix2 l r)
      = feat (m ((c : Thread nD τ).loc main_arg0)) (m ((c : Thread nD τ).loc main_arg1)) (m ((c : Thread nD τ).loc main_arg2))
          (m ((c : Thread nD τ).loc main_arg3)) (m ((c : Thread nD τ).loc main_arg4)) ⟨s.val / 2, sentence_lt s⟩ l r := by
  refine (Payload.pay2_apply (iblk m c 0 s) (iblk m c 1 s) (iblk m c 2 s) (iblk m c 3 s) (iblk m c 4 s) l r).trans ?_
  unfold Payload.featBlk feat
  refine congrArg₂ max (congrArg₂ (· + ·) (Finset.sum_congr rfl fun k _ => congrArg₂ (· * ·) ?_ (Inputs.iblk3_apply m c s k r))
    (Inputs.iblk4_apply m c s r)) rfl
  unfold Payload.hidBlk hid
  exact congrArg₂ max (congrArg₂ (· + ·) (Finset.sum_congr rfl fun k' _ => congrArg₂ (· * ·)
    (Inputs.iblk0_apply m c s l k' (sentence_lt s)) (Inputs.iblk1_apply m c s k' k)) (Inputs.iblk2_apply m c s k)) rfl

/-- Their squared norms are the specification's. -/
theorem norms_apply (c : Dev nD) (s : Fin cfg0.N) (q : Fin 1024) :
    norms m c s (ix2 (0 : Fin 1) q)
      = PairDist.sq (m ((c : Thread nD τ).loc main_arg0)) (m ((c : Thread nD τ).loc main_arg1)) (m ((c : Thread nD τ).loc main_arg2))
          (m ((c : Thread nD τ).loc main_arg3)) (m ((c : Thread nD τ).loc main_arg4)) ⟨s.val / 2, sentence_lt s⟩ q := by
  refine (Payload.pay3_apply (iblk m c 0 s) (iblk m c 1 s) (iblk m c 2 s) (iblk m c 3 s) (iblk m c 4 s) q).trans ?_
  unfold PairDist.sq
  refine Finset.sum_congr rfl fun r _ => ?_
  have e := feats_apply m c s q r
  have e' : Payload.featBlk (iblk m c 0 s) (iblk m c 1 s) (iblk m c 2 s) (iblk m c 3 s) (iblk m c 4 s) q r = _ := (Payload.pay2_apply (iblk m c 0 s) (iblk m c 1 s) (iblk m c 2 s) (iblk m c 3 s) (iblk m c 4 s) q r).symm.trans e
  rw [e']

/-- Row `p` of point `t`'s row tile is row `512 · (t % 2) + p` of the probe vectors. -/
theorem rowTile_apply (t : Fin cfg0.N) (S : Vec Ideal S1024x128 .f32) (p : Fin 512) (r : Fin 128) :
    Pieces.rowTile (grid0.coords t) S (ix2 p r) = S (ix2 ⟨512 * (t.val % 2) + p.val, row_lt t p⟩ r) := by
  obtain ⟨-, -, -, -, -, -, -, -, -, -, -, -, -, -, e⟩ := Inputs.grid_facts t
  have eo := k0_off1_eq (grid0.coords t)
  refine congrArg S (funext fun a => Fin.ext ?_)
  match a with
  | ⟨0, _⟩ =>
    show k0_off1 (grid0.coords t) 0 + 1 * p.val = 512 * (t.val % 2) + p.val
    rw [eo, ← e]; show 512 * (grid0.coords t 1).val + 1 * p.val = _; omega
  | ⟨1, _⟩ =>
    show k0_off1 (grid0.coords t) 1 + 1 * r.val = r.val
    rw [eo]; show 0 + 1 * r.val = r.val; omega

/-- The tile of point `t`, over the probe vectors of a point `s` of the same sentence, at row `p`, column `q`. -/
theorem tile_apply (c : Dev nD) (t s : Fin cfg0.N) (hs : s.val / 2 = t.val / 2) (p : Fin 512) (q : Fin 1024) :
    tile m c t s (ix3 (0 : Fin 1) p q)
      = spec m c (ix3 ⟨t.val / 2, sentence_lt t⟩ ⟨512 * (t.val % 2) + p.val, row_lt t p⟩ q) := by
  have hb : (⟨s.val / 2, sentence_lt s⟩ : Fin 16) = ⟨t.val / 2, sentence_lt t⟩ := Fin.ext hs
  refine (Payload.pay4_apply (feats m c s) (Pieces.rowTile (grid0.coords t) (feats m c s)) (norms m c s) p q).trans ?_
  refine Eq.trans ?_ (result_ix3 _ _ _ _ _ _ _ _).symm
  unfold PairDist.dist
  rw [norms_apply, hb]
  have hrow : ∀ r : Fin 128, Pieces.rowTile (grid0.coords t) (feats m c s) (ix2 p r)
      = feat (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 2, sentence_lt t⟩
          ⟨512 * (t.val % 2) + p.val, row_lt t p⟩ r := fun r => by
    rw [rowTile_apply, feats_apply, hb]
  have hcol : ∀ r : Fin 128, feats m c s (ix2 q r)
      = feat (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 2, sentence_lt t⟩ q r := fun r => by
    rw [feats_apply, hb]
  unfold PairDist.sq
  refine congrArg₂ max (congrArg₂ (· - ·) (congrArg₂ (· + ·) (Finset.sum_congr rfl fun r _ => by rw [hrow]) rfl)
    (congrArg (twoW * ·) (Finset.sum_congr rfl fun r _ => by rw [hrow, hcol]))) rfl

/-! ## From the blocks to the array -/

/-- What point `t` writes back is block `t` of the specification function. -/
theorem flushed_eq (c : Dev nD) (t : Fin cfg0.N) :
    (dats m 0 c).flushed 5 t = ((cfg0.win 5).blk t).view.read (Elt Ideal) (spec m c) := by
  have hN : cfg0.N = 32 := N_0
  obtain ⟨-, -, -, -, -, -, -, -, -, -, -, e0, e1, e2, -⟩ := Inputs.grid_facts t
  have key : ∀ s : Fin cfg0.N, s.val / 2 = t.val / 2 →
      (cfg0.win 5).cut (grid0.coords t) (tile m c t s) = ((cfg0.win 5).blk t).view.read (Elt Ideal) (spec m c) := fun s hs => by
    funext j
    obtain ⟨u, p, q, rfl⟩ : ∃ (u : Fin 1) (p : Fin 512) (q : Fin 1024), j = ix3 u p q := ⟨j 0, j 1, j 2, eq_ix3 j⟩
    obtain rfl : u = 0 := Subsingleton.elim _ _
    rw [View.read_apply]
    show tile m c t s (ix3 (0 : Fin 1) p q) = spec m c (((cfg0.win 5).blk t).view.emb (ix3 (0 : Fin 1) p q))
    rw [tile_apply m c t s hs p q]
    refine congrArg (spec m c) (funext fun a => Fin.ext ?_)
    match a with
    | ⟨0, _⟩ => show t.val / 2 = win0_5.index t (0 : Fin 3) * 1 + 1 * 0; rw [e0]; omega
    | ⟨1, _⟩ => show 512 * (t.val % 2) + p.val = win0_5.index t (1 : Fin 3) * 512 + 1 * p.val; rw [e1]; omega
    | ⟨2, _⟩ => show q.val = win0_5.index t (2 : Fin 3) * 1024 + 1 * q.val; rw [e2]; omega
  by_cases h0 : t.val % 2 = 0
  · rw [flushed_even m c t h0]; exact key t rfl
  · have hlt : t.val - 1 < cfg0.N := by have := t.isLt; omega
    rw [flushed_odd m c t h0 hlt]
    exact key ⟨t.val - 1, hlt⟩ (by show (t.val - 1) / 2 = t.val / 2; omega)

/-- An index of the result array is in point `t`'s block iff each coordinate is in the block's range on its axis. -/
theorem mem_blk (t : Fin cfg0.N) (i : S16x1024x1024.Idx) :
    i ∈ ((cfg0.win 5).blk t).view.set
      ↔ ∀ a : Fin 3, win0_5.index t a * S1x512x1024.size a ≤ (i a).val ∧ (i a).val < win0_5.index t a * S1x512x1024.size a + S1x512x1024.size a := by
  show i ∈ ((View.whole main_v4).slice (win0_5.rect t)).set ↔ _
  rw [View.set_slice_whole, Rect.mem_set_unit]
  exact Iff.rfl

/-- Every index lies in the block of the point of its sentence and row tile. -/
theorem cover (i : S16x1024x1024.Idx) :
    ∃ t : Fin cfg0.N, (cfg0.win 5).flush t = true ∧ i ∈ ((cfg0.win 5).blk t).view.set := by
  have hN : cfg0.N = 32 := N_0
  have h0 : (i 0).val < 16 := (i 0).isLt
  have h1 : (i 1).val < 1024 := (i 1).isLt
  have h2 : (i 2).val < 1024 := (i 2).isLt
  let t : Fin cfg0.N := ⟨2 * (i 0).val + (i 1).val / 512, by omega⟩
  have ht : t.val = 2 * (i 0).val + (i 1).val / 512 := rfl
  obtain ⟨-, -, -, -, -, -, -, -, -, -, -, e0, e1, e2, -⟩ := Inputs.grid_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    rw [e0, ht]; omega
  | ⟨1, _⟩ =>
    show win0_5.index t (1 : Fin 3) * 512 ≤ (i 1).val ∧ (i 1).val < win0_5.index t (1 : Fin 3) * 512 + 512
    rw [e1, ht]; omega
  | ⟨2, _⟩ =>
    show win0_5.index t (2 : Fin 3) * 1024 ≤ (i 2).val ∧ (i 2).val < win0_5.index t (2 : Fin 3) * 1024 + 1024
    rw [e2]; omega

/-- The result array after the run is the specification function of the argument arrays. -/
theorem final (c : Dev nD) : (dats m 0 c).arrAt 5 cfg0.N = spec m c :=
  (dats m 0 c).arrAt_eq_of_cover 5 (spec m c) (fun t _ => flushed_eq m c t) cover

/-- The kernel's run: the result array at the specification function, the arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefSpec.lean ====
/-
  The reference program, read one element at a time over the extended reals, is the specification function.

  The reference computes, for 16 sentences of 1024 tokens with 1024 features each, two affine layers each followed
  by a clamp at zero, then per token the sum of squares of its 128 probe coordinates, then per pair of tokens the
  inner product of their probe vectors, and finally  max ((|u|² + |v|²) − 2·⟨u, v⟩) 0.  Reading each operation at an
  index (a contraction is a finite sum of products, a reduction is its initial value plus a finite sum, a broadcast
  reads its operand at a projected index, the elementwise operations act coordinate by coordinate) and naming the
  indices by their coordinates gives exactly the defining formulas of `hid`, `feat`, `sq` and `dist`:

      first layer   = hid,      second layer = feat,      sum of squares = sq   (its initial value is the word of 0.0,
      which is the real number 0, so it drops out of the sum),      result = dist.
-/
import proofs.«122737_j34505767256461_2_alg».proof.Proof.Spec
import proofs.«122737_j34505767256461_2_alg».proof.Proof.Gen.ReferenceIdeal.Read
import Idealize.ShloMosaic.Lib.ValueIdx
import Idealize.ShloMosaic.PureOps.Ideal.Laws

noncomputable section

namespace Cert.PairDist.Ref

open Idealize.ShloMosaic Idealize.ShloMosaic.ValueIdx
open Cert.ReferenceIdeal Cert.ReferenceIdeal.Read
open scoped BigOperators

/-! ## The index maps of the reference's operations, at indices given by coordinates -/

theorem lidx_v0 (b : Fin 16) (l h k : Fin 1024) : lidx_main_v0 (ix3 b l h) k = ix3 b l k :=
  funext fun a => by match a with | ⟨0, _⟩ => rfl | ⟨1, _⟩ => rfl | ⟨2, _⟩ => rfl

theorem ridx_v0 (b : Fin 16) (l h k : Fin 1024) : ridx_main_v0 (ix3 b l h) k = ix2 k h :=
  funext fun a => by match a with | ⟨0, _⟩ => rfl | ⟨1, _⟩ => rfl

theorem bidx_v2 (b : Fin 16) (l h : Fin 1024) : idx_main_v1 (idx_main_v2 (ix3 b l h)) = ix1 h :=
  funext fun a => by match a with | ⟨0, _⟩ => rfl

theorem lidx_v6 (b : Fin 16) (l : Fin 1024) (r : Fin 128) (k : Fin 1024) : lidx_main_v6 (ix3 b l r) k = ix3 b l k :=
  funext fun a => by match a with | ⟨0, _⟩ => rfl | ⟨1, _⟩ => rfl | ⟨2, _⟩ => rfl

theorem ridx_v6 (b : Fin 16) (l : Fin 1024) (r : Fin 128) (k : Fin 1024) : ridx_main_v6 (ix3 b l r) k = ix2 k r :=
  funext fun a => by match a with | ⟨0, _⟩ => rfl | ⟨1, _⟩ => rfl

theorem bidx_v8 (b : Fin 16) (l : Fin 1024) (r : Fin 128) : idx_main_v7 (idx_main_v8 (ix3 b l r)) = ix1 r :=
  funext fun a => by match a with | ⟨0, _⟩ => rfl

theorem idx_v13 (b : Fin 16) (l : Fin 1024) (k : Fin 128) : idx_main_v13 (ix2 b l) k = ix3 b l k :=
  funext fun a => by match a with | ⟨0, _⟩ => rfl | ⟨1, _⟩ => rfl | ⟨2, _⟩ => rfl

theorem lidx_v14 (b : Fin 16) (p q : Fin 1024) (k : Fin 128) : lidx_main_v14 (ix3 b p q) k = ix3 b p k :=
  funext fun a => by match a with | ⟨0, _⟩ => rfl | ⟨1, _⟩ => rfl | ⟨2, _⟩ => rfl

theorem ridx_v14 (b : Fin 16) (p q : Fin 1024) (k : Fin 128) : ridx_main_v14 (ix3 b p q) k = ix3 b q k :=
  funext fun a => by match a with | ⟨0, _⟩ => rfl | ⟨1, _⟩ => rfl | ⟨2, _⟩ => rfl

theorem bidx_v17 (b : Fin 16) (p q : Fin 1024) : idx_main_v15 (idx_main_v17 (ix3 b p q)) = ix2 b p :=
  funext fun a => by match a with | ⟨0, _⟩ => rfl | ⟨1, _⟩ => rfl

theorem bidx_v18 (b : Fin 16) (p q : Fin 1024) : idx_main_v16 (idx_main_v18 (ix3 b p q)) = ix2 b q :=
  funext fun a => by match a with | ⟨0, _⟩ => rfl | ⟨1, _⟩ => rfl

/-! ## The stages -/

variable (x0 : (⟨S16x1024x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x128, .f32⟩ : BufTy).Contents (Elt Ideal))
  (x4 : (⟨S128, .f32⟩ : BufTy).Contents (Elt Ideal))

/-- The first clamped layer of the reference is `hid`. -/
theorem hid_ref (b : Fin 16) (l h : Fin 1024) :
    val_main_v5 (F := Ideal) x0 x1 x2 (ix3 b l h) = hid x0 x1 x2 b l h := by
  rw [val_main_v5_apply, val_main_v3_apply, val_main_v0_apply, val_main_v2_apply, val_main_v1_apply,
    val_main_v4_apply, val_main_cst_apply, bidx_v2]
  have hs : (∑ k : Fin 1024, x0 (lidx_main_v0 (ix3 b l h) k) * x1 (ridx_main_v0 (ix3 b l h) k))
      = ∑ k : Fin 1024, x0 (ix3 b l k) * x1 (ix2 k h) :=
    Finset.sum_congr rfl fun k _ => by rw [lidx_v0, ridx_v0]
  rw [hs]
  rfl

/-- The second clamped layer of the reference is `feat`. -/
theorem feat_ref (b : Fin 16) (l : Fin 1024) (r : Fin 128) :
    val_main_v11 (F := Ideal) x0 x1 x2 x3 x4 (ix3 b l r) = feat x0 x1 x2 x3 x4 b l r := by
  rw [val_main_v11_apply, val_main_v9_apply, val_main_v6_apply, val_main_v8_apply, val_main_v7_apply,
    val_main_v10_apply, val_main_cst_0_apply, bidx_v8]
  have hs : (∑ k : Fin 1024, val_main_v5 (F := Ideal) x0 x1 x2 (lidx_main_v6 (ix3 b l r) k) * x3 (ridx_main_v6 (ix3 b l r) k))
      = ∑ k : Fin 1024, hid x0 x1 x2 b l k * x3 (ix2 k r) :=
    Finset.sum_congr rfl fun k _ => by rw [lidx_v6, ridx_v6, hid_ref]
  rw [hs]
  rfl

/-- The reference's sum of squares is `sq`: the sum starts from the word of `0.0`, which is `0`. -/
theorem sq_ref (b : Fin 16) (l : Fin 1024) :
    val_main_v13 (F := Ideal) x0 x1 x2 x3 x4 (ix2 b l) = sq x0 x1 x2 x3 x4 b l := by
  rw [val_main_v13_apply, val_main_cst_1_apply, Ideal.ofBits_def, Ideal.ofBits_zero_f32, zero_add]
  unfold sq
  refine Finset.sum_congr rfl fun k _ => ?_
  rw [idx_v13, val_main_v12_apply, feat_ref, Ideal.mulf_def]

/-- The reference's result is the specification function. -/
theorem ref_eq_result :
    val_main_v24 (F := Ideal) x0 x1 x2 x3 x4 = result x0 x1 x2 x3 x4 := by
  funext i
  obtain ⟨b, p, q, rfl⟩ : ∃ b p q, i = ix3 b p q := ⟨i 0, i 1, i 2, eq_ix3 i⟩
  rw [result_ix3, val_main_v24_apply, val_main_v22_apply, val_main_v19_apply, val_main_v17_apply, val_main_v15_apply,
    val_main_v18_apply, val_main_v16_apply, val_main_v21_apply, val_main_v20_apply, val_main_cst_2_apply,
    val_main_v14_apply, val_main_v23_apply, val_main_cst_3_apply, bidx_v17, bidx_v18, sq_ref, sq_ref]
  have hs : (∑ k : Fin 128, val_main_v11 (F := Ideal) x0 x1 x2 x3 x4 (lidx_main_v14 (ix3 b p q) k)
        * val_main_v11 (F := Ideal) x0 x1 x2 x3 x4 (ridx_main_v14 (ix3 b p q) k))
      = ∑ r : Fin 128, feat x0 x1 x2 x3 x4 b p r * feat x0 x1 x2 x3 x4 b q r :=
    Finset.sum_congr rfl fun k _ => by rw [lidx_v14, ridx_v14, feat_ref, feat_ref]
  rw [hs]
  rfl

end Cert.PairDist.Ref

end
-- ==== Proof.lean ====
/-
  The certificate of a fused two-layer probe and pairwise squared distance kernel against its plain reference.

  Both programs take a batch of 16 sentences × 1024 tokens × 1024 features, a 1024 × 1024 and a 1024 × 128 weight matrix
  and their bias vectors, apply to every token two affine layers each clamped at zero, and return for every sentence the
  1024 × 1024 table  max ((|u_i|² + |u_j|²) − 2·⟨u_i, u_j⟩) 0  of the tokens' 128-coordinate probe vectors `u`.
  The kernel does it on a 16 × 2 grid (sentence, row tile of 512 rows): at a sentence's first row tile it computes the
  probe vectors and their squared norms once into two buffers it carries to the second row tile, and at both tiles it
  forms the tile's distances from those buffers; it narrows its matrix operands to sixteen-bit floats, which on extended
  reals is the identity. The reference does the same arithmetic on whole arrays. Over the extended reals both are the
  one function `Cert.PairDist.result` of the arguments, term for term: the same sums over the same index sets, the same
  order of the same operations, the same two literal words, so no law of arithmetic beyond `0 + x = x` is used and the
  finiteness of the inputs is never opened.

  • the three frames: the two kernel programs' are the generated frame certificates, the reference's is its generated
    run with the result dropped;
  • `preserves`: the idealized kernel replaces two round trips through the sixteen-bit format (on the probe vectors
    before squaring them, at both tile sizes) by the identity, which is what those round trips are on extended reals;
  • `algebraic`: the kernel's result array is the specification function block by block (Blocks), the reference's is it
    operation by operation (RefSpec).
-/
import proofs.«122737_j34505767256461_2_alg».proof.Defs
import proofs.«122737_j34505767256461_2_alg».proof.Proof.Gen.Kernel
import proofs.«122737_j34505767256461_2_alg».proof.Proof.Gen.Kernel.Skeleton
import proofs.«122737_j34505767256461_2_alg».proof.Proof.Gen.Kernel.Launch
import proofs.«122737_j34505767256461_2_alg».proof.Proof.Gen.Kernel.Points
import proofs.«122737_j34505767256461_2_alg».proof.Proof.Gen.Kernel.Frame
import proofs.«122737_j34505767256461_2_alg».proof.Proof.Gen.KernelIdeal
import proofs.«122737_j34505767256461_2_alg».proof.Proof.Gen.KernelIdeal.Skeleton
import proofs.«122737_j34505767256461_2_alg».proof.Proof.Gen.KernelIdeal.Launch
import proofs.«122737_j34505767256461_2_alg».proof.Proof.Gen.KernelIdeal.Points
import proofs.«122737_j34505767256461_2_alg».proof.Proof.Gen.KernelIdeal.Frame
import proofs.«122737_j34505767256461_2_alg».proof.Proof.Gen.ReferenceIdeal
import proofs.«122737_j34505767256461_2_alg».proof.Proof.Gen.Pre_finite_inputs
import proofs.«122737_j34505767256461_2_alg».proof.Proof.Gen.KernelIdeal.Value
import proofs.«122737_j34505767256461_2_alg».proof.Proof.Gen.ReferenceIdeal.Run
import proofs.«122737_j34505767256461_2_alg».proof.Proof.Gen.ReferenceIdeal.Read
import proofs.«122737_j34505767256461_2_alg».proof.Proof.Blocks
import proofs.«122737_j34505767256461_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Narrowing to the sixteen-bit format and widening back is the identity on extended reals, at both tile sizes. -/
theorem preserves : Cert.preserves_Kernel_KernelIdeal :=
  ⟨IdealRules.truncf_extf.statement _ .f32 .bf16, IdealRules.truncf_extf.statement _ .f32 .bf16⟩

/-- Both result arrays end at the specification function of arguments that agree. -/
theorem algebraic : Cert.algebraic_KernelIdeal_ReferenceIdeal := by
  intro m ρ m' ρ' _ hagree
  refine ⟨fun c => Cert.KernelIdeal.Blocks.spec m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.PairDist.Ref.ref_eq_result,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
